-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x75 : Shape := ⟨2, ![50000, 75]⟩
abbrev S2x800000 : Shape := ⟨2, ![2, 800000]⟩
abbrev S50000 : Shape := ⟨1, ![50000]⟩
abbrev S75x128 : Shape := ⟨2, ![75, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x75 : S_.BroadcastsInDim S50000x75 (![] : Fin 0 → Fin S50000x75.rank)
  reducesTo_S50000x75_S_d0_1 : S50000x75.ReducesTo [0, 1] S_
  h_S_ : 0 < S_.numel
  bcast_S_S75x128 : S_.BroadcastsInDim S75x128 (![] : Fin 0 → Fin S75x128.rank)
  reducesTo_S75x128_S_d0_1 : S75x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x75 .f32) (main_arg1 : IVec S2x800000 32) (main_arg2 : IVec S50000 32) (main_arg3 : FVec F S75x128 .f32) (main_arg4 : FVec F S128 .f32) (main_arg5 : FVec F S128x1 .f32) (main_arg6 : FVec F S1 .f32) : IVec S_ 1 :=
  let main_v0 : FVec F S50000x75 .f32 := Host.absf main_arg0
  let main_cst : FVec F S_ .f32 := constant S_ .f32 0x7F800000#32
  let main_v1 : FVec F S50000x75 .f32 := broadcastInDim S50000x75 ![] bcast_S_S50000x75 main_cst
  let main_v2 : IVec S50000x75 1 := cmpf .olt main_v0 main_v1
  let main_c : IVec S_ 1 := constantI S_ 1 1#1
  let main_v3 : IVec S_ 1 := (fun x v => Host.reduce IntOp.andi x v reducesTo_S50000x75_S_d0_1 h_S_) main_v2 main_c
  let main_v4 : FVec F S75x128 .f32 := Host.absf main_arg3
  let main_cst_0 : FVec F S_ .f32 := constant S_ .f32 0x7F800000#32
  let main_v5 : FVec F S75x128 .f32 := broadcastInDim S75x128 ![] bcast_S_S75x128 main_cst_0
  let main_v6 : IVec S75x128 1 := cmpf .olt main_v4 main_v5
  let main_c_1 : IVec S_ 1 := constantI S_ 1 1#1
  let main_v7 : IVec S_ 1 := (fun x v => Host.reduce IntOp.andi x v reducesTo_S75x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S50000x75 : Shape := ⟨2, ![50000, 75]⟩
abbrev S2x800000 : Shape := ⟨2, ![2, 800000]⟩
abbrev S50000 : Shape := ⟨1, ![50000]⟩
abbrev S75x128 : Shape := ⟨2, ![75, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x75 : Shape := ⟨2, ![850000, 75]⟩
abbrev S50000x128 : Shape := ⟨2, ![50000, 128]⟩
abbrev S1000x75 : Shape := ⟨2, ![1000, 75]⟩
abbrev S1000x128 : Shape := ⟨2, ![1000, 128]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩

abbrev nBuf : Space → Nat
  | .hbm => 88
  | .vmem => 10
  | .smem => 0
  | _ => 0

abbrev bufTy : (tb : Table) → Fin (tcTables nBuf tb) → BufTy
  | .hbm, ⟨0, _⟩ => ⟨S50000x75, .f32⟩
  | .hbm, ⟨1, _⟩ => ⟨S2x800000, .i32⟩
  | .hbm, ⟨2, _⟩ => ⟨S50000, .i32⟩
  | .hbm, ⟨3, _⟩ => ⟨S75x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x75, .f32⟩
  | .hbm, ⟨60, _⟩ => ⟨S850000x75, .f32⟩
  | .hbm, ⟨61, _⟩ => ⟨S850000x75, .f32⟩
  | .hbm, ⟨62, _⟩ => ⟨S_, .f32⟩
  | .hbm, ⟨63, _⟩ => ⟨S50000x75, .f32⟩
  | .hbm, ⟨64, _⟩ => ⟨S850000x1, .i32⟩
  | .hbm, ⟨65, _⟩ => ⟨S50000x75, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x75, .f32⟩
  | .hbm, ⟨76, _⟩ => ⟨S850000x75, .f32⟩
  | .hbm, ⟨77, _⟩ => ⟨S850000x75, .f32⟩
  | .hbm, ⟨78, _⟩ => ⟨S_, .f32⟩
  | .hbm, ⟨79, _⟩ => ⟨S50000x75, .f32⟩
  | .hbm, ⟨80, _⟩ => ⟨S850000x1, .i32⟩
  | .hbm, ⟨81, _⟩ => ⟨S50000x75, .f32⟩
  | .hbm, ⟨82, _⟩ => ⟨S50000x128, .f32⟩
  | .hbm, ⟨83, _⟩ => ⟨S_, .f32⟩
  | .hbm, ⟨84, _⟩ => ⟨S512x128, .f32⟩
  | .hbm, ⟨85, _⟩ => ⟨S50000x1, .i32⟩
  | .hbm, ⟨86, _⟩ => ⟨S512x128, .f32⟩
  | .hbm, ⟨87, _⟩ => ⟨S512x1, .f32⟩
  | .local _ .vmem, ⟨0, _⟩ => ⟨S1000x75, .f32⟩
  | .local _ .vmem, ⟨1, _⟩ => ⟨S1000x75, .f32⟩
  | .local _ .vmem, ⟨2, _⟩ => ⟨S75x128, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S512x128, .f32⟩
  | .local _ .vmem, ⟨7, _⟩ => ⟨S128x1, .f32⟩
  | .local _ .vmem, ⟨8, _⟩ => ⟨S1, .f32⟩
  | .local _ .vmem, ⟨9, _⟩ => ⟨S512x1, .f32⟩
  | _, _ => ⟨S50000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x75_0_1 : S850000x1.BroadcastsInDim S850000x75 (![0, 1] : Fin 2 → Fin S850000x75.rank)
  bcast_S_S50000x75 : S_.BroadcastsInDim S50000x75 (![] : Fin 0 → Fin S50000x75.rank)
  inb_S1000x75_S1000x75_0_0 : ∀ a, (![0, 0] : Fin 2 → Nat) a + S1000x75.size a ≤ S1000x75.size a
  h_S1000x75 : 0 < S1000x75.numel
  shapeCasts_S1000x75_S1000x75 : S1000x75.ShapeCasts S1000x75
  bitsLt_bf16_f32 : FTy.bits .bf16 < FTy.bits .f32
  inb_S75x128_S75x128_0_0 : ∀ a, (![0, 0] : Fin 2 → Nat) a + S75x128.size a ≤ S75x128.size a
  h_S75x128 : 0 < S75x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S512x128 : S_.BroadcastsInDim S512x128 (![] : Fin 0 → Fin S512x128.rank)
  bcast_S50000_S50000x1_0 : S50000.BroadcastsInDim S50000x1 (![0] : Fin 1 → Fin S50000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x75_S850000x1_S850000x75_1_0_n_n_0_1_175_wf : GatherDims.WF S50000x75 S850000x1 S850000x75 [1] [0] [] [0] [] 1 ![1, 75]
  scatter_S50000x75_S850000x1_S850000x75_1_0_0_1_wf : ScatterDims.WF S50000x75 S850000x1 S850000x75 [1] [0] [0] 1
  dot_S1000x75_S75x128_S1000x128_1_0_0_1_n_n_wf : DotDims.WF S1000x75 S75x128 S1000x128 [1] [0] [0] [1] [] []
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x75.size a ≤ S50000x75.size a
  hwx0_0 : ∀ i : grid0.Coords, EltTy.bits .f32 = 32 ∨ (Rect.block (s := S50000x75) S1000x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x128.size a ≤ S75x128.size a
  hwx0_1 : ∀ i : grid0.Coords, EltTy.bits .f32 = 32 ∨ (Rect.block (s := S75x128) S75x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x75_S850000x1_S850000x75_1_0_n_n_0_1_175 : GatherDims S50000x75 S850000x1 S850000x75 where
  offsetDims := [1]
  collapsedSliceDims := [0]
  operandBatchingDims := []
  startIndicesBatchingDims := []
  startIndexMap := [0]
  indexVectorDim := 1
  sliceSizes := ![1, 75]
  wf := gather_S50000x75_S850000x1_S850000x75_1_0_n_n_0_1_175_wf
def scatter_S50000x75_S850000x1_S850000x75_1_0_0_1 : ScatterDims S50000x75 S850000x1 S850000x75 where
  updateWindowDims := [1]
  insertedWindowDims := [0]
  scatterDimsToOperandDims := [0]
  indexVectorDim := 1
  wf := scatter_S50000x75_S850000x1_S850000x75_1_0_0_1_wf
def dot_S1000x75_S75x128_S1000x128_1_0_0_1_n_n : DotDims S1000x75 S75x128 S1000x128 where
  lhsContracting := [1]
  rhsContracting := [0]
  lhsNonContracting := [0]
  rhsNonContracting := [1]
  lhsBatch := []
  rhsBatch := []
  wf := dot_S1000x75_S75x128_S1000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v57) S1000x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S75x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S512x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x75 : Shape := ⟨2, ![50000, 75]⟩
abbrev S2x800000 : Shape := ⟨2, ![2, 800000]⟩
abbrev S50000 : Shape := ⟨1, ![50000]⟩
abbrev S75x128 : Shape := ⟨2, ![75, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x75 : Shape := ⟨2, ![850000, 75]⟩
abbrev S50000x128 : Shape := ⟨2, ![50000, 128]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x75, .f32⟩
  | .hbm, ⟨1, _⟩ => ⟨S2x800000, .i32⟩
  | .hbm, ⟨2, _⟩ => ⟨S50000, .i32⟩
  | .hbm, ⟨3, _⟩ => ⟨S75x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x75, .f32⟩
  | .hbm, ⟨60, _⟩ => ⟨S850000x75, .f32⟩
  | .hbm, ⟨61, _⟩ => ⟨S850000x75, .f32⟩
  | .hbm, ⟨62, _⟩ => ⟨S_, .f32⟩
  | .hbm, ⟨63, _⟩ => ⟨S50000x75, .f32⟩
  | .hbm, ⟨64, _⟩ => ⟨S850000x1, .i32⟩
  | .hbm, ⟨65, _⟩ => ⟨S50000x75, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x75, .f32⟩
  | .hbm, ⟨76, _⟩ => ⟨S850000x75, .f32⟩
  | .hbm, ⟨77, _⟩ => ⟨S850000x75, .f32⟩
  | .hbm, ⟨78, _⟩ => ⟨S_, .f32⟩
  | .hbm, ⟨79, _⟩ => ⟨S50000x75, .f32⟩
  | .hbm, ⟨80, _⟩ => ⟨S850000x1, .i32⟩
  | .hbm, ⟨81, _⟩ => ⟨S50000x75, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S512x128, .f32⟩
  | .hbm, ⟨88, _⟩ => ⟨S50000x1, .i32⟩
  | .hbm, ⟨89, _⟩ => ⟨S512x128, .f32⟩
  | .hbm, ⟨90, _⟩ => ⟨S512x1, .f32⟩
  | .hbm, ⟨91, _⟩ => ⟨S1x1, .f32⟩
  | .hbm, ⟨92, _⟩ => ⟨S512x1, .f32⟩
  | .hbm, ⟨93, _⟩ => ⟨S512x1, .f32⟩
  | _, _ => ⟨S50000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x75_0_1 : S850000x1.BroadcastsInDim S850000x75 (![0, 1] : Fin 2 → Fin S850000x75.rank)
  bcast_S_S50000x75 : S_.BroadcastsInDim S50000x75 (![] : Fin 0 → Fin S50000x75.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x75_S850000x1_S850000x75_1_0_n_n_0_1_175_wf : GatherDims.WF S50000x75 S850000x1 S850000x75 [1] [0] [] [0] [] 1 ![1, 75]
  scatter_S50000x75_S850000x1_S850000x75_1_0_0_1_wf : ScatterDims.WF S50000x75 S850000x1 S850000x75 [1] [0] [0] 1
  dot_S50000x75_S75x128_S50000x128_1_0_0_1_n_n_wf : DotDims.WF S50000x75 S75x128 S50000x128 [1] [0] [0] [1] [] []
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x75_S850000x1_S850000x75_1_0_n_n_0_1_175 : GatherDims S50000x75 S850000x1 S850000x75 where
  offsetDims := [1]
  collapsedSliceDims := [0]
  operandBatchingDims := []
  startIndicesBatchingDims := []
  startIndexMap := [0]
  indexVectorDim := 1
  sliceSizes := ![1, 75]
  wf := gather_S50000x75_S850000x1_S850000x75_1_0_n_n_0_1_175_wf
def scatter_S50000x75_S850000x1_S850000x75_1_0_0_1 : ScatterDims S50000x75 S850000x1 S850000x75 where
  updateWindowDims := [1]
  insertedWindowDims := [0]
  scatterDimsToOperandDims := [0]
  indexVectorDim := 1
  wf := scatter_S50000x75_S850000x1_S850000x75_1_0_0_1_wf
def dot_S50000x75_S75x128_S50000x128_1_0_0_1_n_n : DotDims S50000x75 S75x128 S50000x128 where
  lhsContracting := [1]
  rhsContracting := [0]
  lhsNonContracting := [0]
  rhsNonContracting := [1]
  lhsBatch := []
  rhsBatch := []
  wf := dot_S50000x75_S75x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibHostProduct.lean ====
/-
  The host's matrix product read at an index, and two small reads of host broadcasts.

  * `dotGeneral_ix2`: the host's plain product `[M, K] × [K, N]`, read at `(p, q)`, is the sum over the contracted
    coordinate `k : Fin K` of `lhs (p, k) * rhs (k, q)` on the extended reals (any extents, any float formats);
  * `bias_row_apply`: a length-`n` vector laid as a `1 × n` row and spread over `a` rows reads at `(r, k)` its entry `k`;
  * `splat_apply`: a rank-0 constant spread over any shape reads at every index the constant's value.
-/
import Idealize.ShloMosaic.Lib.Pipeline.Value
import Idealize.ShloMosaic.Lib.ValueIdx
import Idealize.ShloMosaic.PureOps.Ideal.Laws
import proofs.«109665_j7103875907621_1_alg».proof.Proof.LibBlock

noncomputable section

open scoped BigOperators

namespace Cert.LibHostProduct

open Idealize.ShloMosaic Idealize.ShloMosaic.ValueIdx

section Product
variable {M K N : Nat} (D : DotDims ⟨2, ![M, K]⟩ ⟨2, ![K, N]⟩ ⟨2, ![M, N]⟩)

/-- The host's plain product `[M, K] × [K, N]` read at `(p, q)`: `∑ₖ lhs (p, k) * rhs (k, q)`. -/
theorem dotGeneral_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact LibBlock.rhsIdx_val_col D hlb hln hrb hrn _ _)
  rw [el, er]

end Product

/-- A length-`n` vector laid as a `1 × n` row, then spread over `a` rows, read at `(r, k)`: entry `k`. -/
theorem bias_row_apply {α : Type} {a n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (r : Fin a) (k : Fin n) :
    broadcastInDim ⟨2, ![a, n]⟩ ![0, 1] h2 (broadcastInDim ⟨2, ![1, n]⟩ ![1] h1 b) (ix2 r k) = b (ix1 k) := by
  refine (broadcastInDim_apply _ h2 _ (ix2 r k) (ix2 (0 : Fin 1) k) fun ax => ?_).trans ?_
  · match ax with
    | ⟨0, _⟩ => rfl
    | ⟨1, _⟩ =>
      show k.val = if n = 1 then 0 else k.val
      split
      · have := k.isLt; omega
      · rfl
  · refine broadcastInDim_apply _ h1 b (ix2 (0 : Fin 1) k) (ix1 k) fun ax => ?_
    match ax with
    | ⟨0, _⟩ =>
      show k.val = if n = 1 then 0 else k.val
      split
      · have := k.isLt; omega
      · rfl

/-- A rank-0 value spread over any shape reads at every index that value. -/
theorem splat_apply {α : Type} {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

end Cert.LibHostProduct

end
-- ==== Proof.Dense.lean ====
/-
  One dense layer on the extended reals, index by index, and its two spellings.

  For x : [M, K], w : [K, N] and b : [N] the layer is
      dense x w b (p, q) = (∑ₖ x (p, k) · w (k, q)) + b q.
  * block_dense: the kernel body's spelling is dense. The body narrows both operands to a shorter float format
    (the identity on the extended reals), multiplies them on the matrix unit into a zero accumulator — the sum over
    the contracted coordinate k of x (p, k) · w (k, q) — and adds the bias laid as a 1 × N row and repeated down the
    M rows, which at (p, q) is b q.
  * host_dense: the host's spelling is dense: its general product contracting x's columns with w's rows is the same
    sum, and the bias laid as a 1 × N row and spread over M rows reads b q at (p, q).
  * dense_at: the layer acts row by row and column by column: if a window x0, w0, b0 of the operands agrees with
    the whole operands along one row and one column, the window's layer there is the whole layer's entry there.
  The two spellings are the same sum of the same products plus the same bias entry: no law of the extended reals
  beyond that is used, and in particular nothing needs the entries to be finite.
-/
import Idealize.ShloMosaic.Lib.Pipeline.Value
import Idealize.ShloMosaic.Lib.ValueIdx
import Idealize.ShloMosaic.Lib.ValueLayout
import Idealize.ShloMosaic.PureOps.Ideal.Laws
import proofs.«109665_j7103875907621_1_alg».proof.Proof.LibBlock
import proofs.«109665_j7103875907621_1_alg».proof.Proof.LibHostProduct

noncomputable section

open scoped BigOperators

namespace Cert.Dense

open Idealize.ShloMosaic Idealize.ShloMosaic.ValueIdx

variable {M K N : Nat}

/-- The dense layer x · w + b, entry by entry. -/
def dense (x : FVec Ideal ⟨2, ![M, K]⟩ .f32) (w : FVec Ideal ⟨2, ![K, N]⟩ .f32) (b : FVec Ideal ⟨1, ![N]⟩ .f32) :
    FVec Ideal ⟨2, ![M, N]⟩ .f32 :=
  fun j => (∑ k : Fin K, x (ix2 (j 0) k) * w (ix2 k (j 1))) + b (ix1 (j 1))

/-- At the entry (p, q): the row p of x against the column q of w, plus b q. -/
theorem dense_ix2 (x : FVec Ideal ⟨2, ![M, K]⟩ .f32) (w : FVec Ideal ⟨2, ![K, N]⟩ .f32) (b : FVec Ideal ⟨1, ![N]⟩ .f32)
    (p : Fin M) (q : Fin N) :
    dense x w b (ix2 p q) = (∑ k : Fin K, x (ix2 p k) * w (ix2 k q)) + b (ix1 q) := rfl

/-- The kernel body's spelling of the layer: operands narrowed, multiplied into a zero accumulator, bias row repeated
    down the rows and added. -/
theorem block_dense (D : DotDims ⟨2, ![M, K]⟩ ⟨2, ![K, N]⟩ ⟨2, ![M, N]⟩)
    (hlc : D.lhsContracting = [1]) (hrc : D.rhsContracting = [0])
    (hlb : D.lhsBatch = []) (hln : D.lhsNonContracting = [0]) (hrb : D.rhsBatch = []) (hrn : D.rhsNonContracting = [1])
    (x : FVec Ideal ⟨2, ![M, K]⟩ .f32) (w : FVec Ideal ⟨2, ![K, N]⟩ .f32) (b : FVec Ideal ⟨1, ![N]⟩ .f32)
    (hx : (⟨2, ![M, K]⟩ : Shape).ShapeCasts ⟨2, ![M, K]⟩) (hb : (⟨1, ![N]⟩ : Shape).ShapeCasts ⟨2, ![1, N]⟩)
    (hbc : (⟨2, ![1, N]⟩ : Shape).Broadcasts ⟨2, ![M, N]⟩) (hlt : FTy.bf16.bits < FTy.f32.bits) :
    addf (matmul D none (truncf .bf16 (shapeCast ⟨2, ![M, K]⟩ x hx) hlt) (truncf .bf16 w hlt)
        (constant (F := Ideal) ⟨2, ![M, N]⟩ .f32 0x00000000#32))
      (broadcastTo ⟨2, ![M, N]⟩ (shapeCast ⟨2, ![1, N]⟩ b hb) hbc) = dense x w b := by
  funext j
  obtain ⟨p, q, rfl⟩ : ∃ (p : Fin M) (q : Fin N), j = ix2 p q := ⟨j 0, j 1, eq_ix2 j⟩
  rw [addf_apply, dense_ix2]
  congr 1
  · refine (LibBlock.matmul_zero_ix2 D hlc hrc hlb hln hrb hrn none _ _ p q).trans ?_
    refine Finset.sum_congr rfl fun k _ => ?_
    rw [truncf_apply, truncf_apply, shapeCast_self]
  · refine (broadcastTo_1b_ab_apply _ hbc p q).trans ?_
    refine (shapeCast_addUnit_apply ![N] b hb _).trans ?_
    exact congrArg b (funext fun a => by match a with | ⟨0, _⟩ => rfl)

/-- The host's spelling of the layer: the general product plus the bias laid as a row and spread over the rows. -/
theorem host_dense (D : DotDims ⟨2, ![M, K]⟩ ⟨2, ![K, N]⟩ ⟨2, ![M, N]⟩)
    (hlc : D.lhsContracting = [1]) (hrc : D.rhsContracting = [0])
    (hlb : D.lhsBatch = []) (hln : D.lhsNonContracting = [0]) (hrb : D.rhsBatch = []) (hrn : D.rhsNonContracting = [1])
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral D none x w) (broadcastInDim ⟨2, ![M, N]⟩ ![0, 1] h2 (broadcastInDim ⟨2, ![1, N]⟩ ![1] h1 b))
      = dense x w b := by
  funext j
  obtain ⟨p, q, rfl⟩ : ∃ (p : Fin M) (q : Fin N), j = ix2 p q := ⟨j 0, j 1, eq_ix2 j⟩
  rw [addf_apply, dense_ix2, LibHostProduct.dotGeneral_ix2 D hlc hrc hlb hln hrb hrn none x w p q,
    LibHostProduct.bias_row_apply b h1 h2 p q]

/-- A window of the operands that agrees with the whole operands along one row and one column gives, at that row
    and column, the whole layer's entry: if row (y 0) of x0 is row (i 0) of X, column (y 1) of w0 is column (i 1) of W and
    entry (y 1) of b0 is entry (i 1) of B, then the window's layer at y is the whole layer at i. -/
theorem dense_at {A C : Nat} (X : FVec Ideal ⟨2, ![A, K]⟩ .f32) (W : FVec Ideal ⟨2, ![K, C]⟩ .f32) (B : FVec Ideal ⟨1, ![C]⟩ .f32)
    (x0 : FVec Ideal ⟨2, ![M, K]⟩ .f32) (w0 : FVec Ideal ⟨2, ![K, N]⟩ .f32) (b0 : FVec Ideal ⟨1, ![N]⟩ .f32)
    (y : (⟨2, ![M, N]⟩ : Shape).Idx) (i : (⟨2, ![A, C]⟩ : Shape).Idx)
    (hx : ∀ k : Fin K, x0 (ix2 (y 0) k) = X (ix2 (i 0) k)) (hw : ∀ k : Fin K, w0 (ix2 k (y 1)) = W (ix2 k (i 1)))
    (hb : b0 (ix1 (y 1)) = B (ix1 (i 1))) :
    dense x0 w0 b0 y = dense X W B i := by
  unfold dense
  rw [hb]
  exact congrArg (· + B (ix1 (i 1))) (Finset.sum_congr rfl fun k _ => by rw [hx k, hw k])

end Cert.Dense

end
-- ==== Proof.Layer1.lean ====
/-
  The first dense layer, from blocks to the array.

  The first region runs over 50 grid points. At point t it reads rows 1000·t … 1000·t + 999 of the propagated
  features (a [50000, 75] array), the whole weight matrix [75, 128] and the whole bias [128], and writes rows
  1000·t … 1000·t + 999 of its [50000, 128] result. What it writes is the dense layer of what it read; the layer
  acts row by row, so block t of the result is block t of the dense layer of the WHOLE feature array; the 50 blocks
  tile the result's rows (row r lies in block r / 1000); hence after the region the result array is the dense layer
  of the feature array, the weights and the bias as the region found them.
-/
import proofs.«109665_j7103875907621_1_alg».proof.Proof.Gen.KernelIdeal.Frame
import proofs.«109665_j7103875907621_1_alg».proof.Proof.Dense
import Idealize.ShloMosaic.Lib.Pipeline.Value

set_option maxRecDepth 16384

noncomputable section

namespace Cert.KernelIdeal.Layer1

open Cert.KernelIdeal Cert.KernelIdeal.Gen Cert.Dense
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset of a rank-1 rectangle is the constant function 0. -/
theorem hz1 : (![0] : Fin 1 → Nat) = fun _ => 0 := funext fun a => by fin_cases a; rfl

/-- What the body stores is the dense layer of the three blocks it loaded. -/
theorem pay_eq (x0 : FVec Ideal S1000x75 .f32) (x1 : FVec Ideal S75x128 .f32) (x2 : FVec Ideal S128 .f32) :
    k0_pay1 (F := Ideal) x0 x1 x2 = dense x0 x1 x2 := by
  unfold k0_pay1
  exact block_dense dot_S1000x75_S75x128_S1000x128_1_0_0_1_n_n rfl rfl rfl rfl rfl rfl x0 x1 x2 _ _ _ _

/-- The printed index maps over the grid: the feature window and the result window move together down the rows, one
    block per point; the weights, the bias and the column axis stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the dense layer of the arrays as the region finds them. -/
theorem flushed_eq (c : Dev nD) (t : Fin cfg0.N) :
    (dat0 V c).flushed 3 t = ((cfg0.win 3).blk t).view.read (Elt Ideal)
      (dense (V c main_v57 : FVec Ideal S50000x75 .f32) (V c main_arg3 : FVec Ideal S75x128 .f32) (V c main_arg4 : FVec Ideal S128 .f32)) := by
  show (cfg0.win 3).cut (grid0.coords t) ((dat0 V c).after 3 t) = _
  rw [after0_3]
  unfold out0_3
  rw [View.canon_unit_zero LibBlock.hz]
  simp only [View.ld_unit_zero (S := S1000x75) LibBlock.hz, View.ld_unit_zero (S := S75x128) LibBlock.hz,
    View.ld_unit_zero (S := S128) hz1]
  rw [pay_eq]
  obtain ⟨e0, e1, e2, e3, e4, e5, e6⟩ := idx_facts t
  funext y
  show dense (iblk0 V c 0 t) (iblk0 V c 1 t) (iblk0 V c 2 t) y
    = dense (V c main_v57 : FVec Ideal S50000x75 .f32) (V c main_arg3 : FVec Ideal S75x128 .f32) (V c main_arg4 : FVec Ideal S128 .f32)
        (((cfg0.win 3).blk t).view.emb y)
  refine dense_at _ _ _ _ _ _ y (((cfg0.win 3).blk t).view.emb y) (fun k => ?_) (fun k => ?_) ?_
  · -- row (y 0) of the feature block is row 1000·t + (y 0) of the feature array
    show V c main_v57 (((cfg0.win 0).blk t).view.emb (ix2 (y 0) k)) = V c main_v57 (ix2 ((((cfg0.win 3).blk t).view.emb y) 0) k)
    refine congrArg (V c main_v57) (funext fun a => Fin.ext ?_)
    match a with
    | ⟨0, _⟩ => show win0_0.index t (0 : Fin 2) * 1000 + 1 * (y 0).val = win0_3.index t (0 : Fin 2) * 1000 + 1 * (y 0).val; omega
    | ⟨1, _⟩ => show win0_0.index t (1 : Fin 2) * 75 + 1 * k.val = k.val; omega
  · -- the weight block is the whole weight matrix; the result's column is the block's
    show V c main_arg3 (((cfg0.win 1).blk t).view.emb (ix2 k (y 1))) = V c main_arg3 (ix2 k ((((cfg0.win 3).blk t).view.emb y) 1))
    refine congrArg (V c main_arg3) (funext fun a => Fin.ext ?_)
    match a with
    | ⟨0, _⟩ => show win0_1.index t (0 : Fin 2) * 75 + 1 * k.val = k.val; omega
    | ⟨1, _⟩ => show win0_1.index t (1 : Fin 2) * 128 + 1 * (y 1).val = win0_3.index t (1 : Fin 2) * 128 + 1 * (y 1).val; omega
  · -- the bias block is the whole bias
    show V c main_arg4 (((cfg0.win 2).blk t).view.emb (ix1 (y 1))) = V c main_arg4 (ix1 ((((cfg0.win 3).blk t).view.emb y) 1))
    refine congrArg (V c main_arg4) (funext fun a => Fin.ext ?_)
    match a with
    | ⟨0, _⟩ => show win0_2.index t (0 : Fin 1) * 128 + 1 * (y 1).val = win0_3.index t (1 : Fin 2) * 128 + 1 * (y 1).val; omega

/-- An index of the result array is in point t's block iff each coordinate is in the block's range on its axis. -/
theorem mem_blk (t : Fin cfg0.N) (i : S50000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v58).slice (win0_3.rect t)).set ↔ _
  rw [View.set_slice_whole, Rect.mem_set_unit]
  exact Iff.rfl

/-- The 50 blocks tile the result's rows: row r lies in the block of point r / 1000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 50 := N_0
  have hlt : (i 0).val / 1000 < cfg0.N := by show _ < grid0.N; rw [hN]; omega
  obtain ⟨-, -, -, -, -, e5, e6⟩ := idx_facts ⟨(i 0).val / 1000, hlt⟩
  refine ⟨⟨(i 0).val / 1000, hlt⟩, flush0_3 _, ?_⟩
  rw [mem_blk]
  intro a
  match a with
  | ⟨0, _⟩ =>
    show win0_3.index ⟨(i 0).val / 1000, hlt⟩ (0 : Fin 2) * 1000 ≤ (i 0).val
      ∧ (i 0).val < win0_3.index ⟨(i 0).val / 1000, hlt⟩ (0 : Fin 2) * 1000 + 1000
    have e5' : win0_3.index ⟨(i 0).val / 1000, hlt⟩ (0 : Fin 2) = (i 0).val / 1000 := e5
    omega
  | ⟨1, _⟩ =>
    show win0_3.index ⟨(i 0).val / 1000, hlt⟩ (1 : Fin 2) * 128 ≤ (i 1).val
      ∧ (i 1).val < win0_3.index ⟨(i 0).val / 1000, hlt⟩ (1 : Fin 2) * 128 + 128
    omega

/-- After the region the result array is the dense layer of the feature array, the weights and the bias as the region
    found them. -/
theorem final (c : Dev nD) :
    (dat0 V c).arrAt 3 cfg0.N
      = dense (V c main_v57 : FVec Ideal S50000x75 .f32) (V c main_arg3 : FVec Ideal S75x128 .f32) (V c main_arg4 : FVec Ideal S128 .f32) :=
  (dat0 V c).arrAt_eq_of_cover 3 _ (fun t _ => flushed_eq V c t) cover

end Cert.KernelIdeal.Layer1

end
-- ==== Proof.Layer2.lean ====
/-
  The second dense layer, from its one block to the array.

  The second region has a single grid point: it reads the whole pooled array [512, 128], the whole weight column
  [128, 1] and the one-entry bias, and writes the whole [512, 1] result. What it writes is the dense layer of what it
  read; its one block is the whole result array; hence after the region the result array is the dense layer of the
  pooled array, the weights and the bias as the region found them.
-/
import proofs.«109665_j7103875907621_1_alg».proof.Proof.Gen.KernelIdeal.Frame
import proofs.«109665_j7103875907621_1_alg».proof.Proof.Dense
import Idealize.ShloMosaic.Lib.Pipeline.Value

set_option maxRecDepth 16384

noncomputable section

namespace Cert.KernelIdeal.Layer2

open Cert.KernelIdeal Cert.KernelIdeal.Gen Cert.Dense
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset of a rank-1 rectangle is the constant function 0. -/
theorem hz1 : (![0] : Fin 1 → Nat) = fun _ => 0 := funext fun a => by fin_cases a; rfl

/-- What the body stores is the dense layer of the three blocks it loaded. -/
theorem pay_eq (x0 : FVec Ideal S512x128 .f32) (x1 : FVec Ideal S128x1 .f32) (x2 : FVec Ideal S1 .f32) :
    k1_pay1 (F := Ideal) x0 x1 x2 = dense x0 x1 x2 := by
  unfold k1_pay1
  exact block_dense dot_S512x128_S128x1_S512x1_1_0_0_1_n_n rfl rfl rfl rfl rfl rfl x0 x1 x2 _ _ _ _

/-- The printed index maps at the grid's one point: every window is at block 0 on every axis. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-- What the point writes back is its block of the dense layer of the arrays as the region finds them. -/
theorem flushed_eq (c : Dev nD) (t : Fin cfg1.N) :
    (dat1 V c).flushed 3 t = ((cfg1.win 3).blk t).view.read (Elt Ideal)
      (dense (V c main_v61 : FVec Ideal S512x128 .f32) (V c main_arg5 : FVec Ideal S128x1 .f32) (V c main_arg6 : FVec Ideal S1 .f32)) := by
  show (cfg1.win 3).cut (grid1.coords t) ((dat1 V c).after 3 t) = _
  rw [after1_3]
  unfold out1_3
  rw [View.canon_unit_zero LibBlock.hz]
  simp only [View.ld_unit_zero (S := S512x128) LibBlock.hz, View.ld_unit_zero (S := S128x1) LibBlock.hz,
    View.ld_unit_zero (S := S1) hz1]
  rw [pay_eq]
  obtain ⟨e0, e1, e2, e3, e4, e5, e6⟩ := idx_facts t
  funext y
  show dense (iblk1 V c 0 t) (iblk1 V c 1 t) (iblk1 V c 2 t) y
    = dense (V c main_v61 : FVec Ideal S512x128 .f32) (V c main_arg5 : FVec Ideal S128x1 .f32) (V c main_arg6 : FVec Ideal S1 .f32)
        (((cfg1.win 3).blk t).view.emb y)
  refine dense_at _ _ _ _ _ _ y (((cfg1.win 3).blk t).view.emb y) (fun k => ?_) (fun k => ?_) ?_
  · show V c main_v61 (((cfg1.win 0).blk t).view.emb (ix2 (y 0) k)) = V c main_v61 (ix2 ((((cfg1.win 3).blk t).view.emb y) 0) k)
    refine congrArg (V c main_v61) (funext fun a => Fin.ext ?_)
    match a with
    | ⟨0, _⟩ => show win1_0.index t (0 : Fin 2) * 512 + 1 * (y 0).val = win1_3.index t (0 : Fin 2) * 512 + 1 * (y 0).val; omega
    | ⟨1, _⟩ => show win1_0.index t (1 : Fin 2) * 128 + 1 * k.val = k.val; omega
  · show V c main_arg5 (((cfg1.win 1).blk t).view.emb (ix2 k (y 1))) = V c main_arg5 (ix2 k ((((cfg1.win 3).blk t).view.emb y) 1))
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 1 + 1 * (y 1).val = win1_3.index t (1 : Fin 2) * 1 + 1 * (y 1).val; omega
  · show V c main_arg6 (((cfg1.win 2).blk t).view.emb (ix1 (y 1))) = V c main_arg6 (ix1 ((((cfg1.win 3).blk t).view.emb y) 1))
    refine congrArg (V c main_arg6) (funext fun a => Fin.ext ?_)
    match a with
    | ⟨0, _⟩ => show win1_2.index t (0 : Fin 1) * 1 + 1 * (y 1).val = win1_3.index t (1 : Fin 2) * 1 + 1 * (y 1).val; omega

/-- An index of the result array is in the point's block iff each coordinate is in the block's range on its axis. -/
theorem mem_blk (t : Fin cfg1.N) (i : S512x1.Idx) :
    i ∈ ((cfg1.win 3).blk t).view.set ↔ ∀ a : Fin 2, win1_3.index t a * S512x1.size a ≤ (i a).val
      ∧ (i a).val < win1_3.index t a * S512x1.size a + S512x1.size a := by
  show i ∈ ((View.whole main_v62).slice (win1_3.rect t)).set ↔ _
  rw [View.set_slice_whole, Rect.mem_set_unit]
  exact Iff.rfl

/-- The one block is the whole result array. -/
theorem cover (i : S512x1.Idx) :
    ∃ t : Fin cfg1.N, (cfg1.win 3).flush t = true ∧ i ∈ ((cfg1.win 3).blk t).view.set := by
  have hi0 : (i 0).val < 512 := (i 0).isLt
  have hi1 : (i 1).val < 1 := (i 1).isLt
  obtain ⟨-, -, -, -, -, e5, e6⟩ := idx_facts t1_0
  refine ⟨t1_0, flush1_3 _, ?_⟩
  rw [mem_blk]
  intro a
  match a with
  | ⟨0, _⟩ =>
    show win1_3.index t1_0 (0 : Fin 2) * 512 ≤ (i 0).val ∧ (i 0).val < win1_3.index t1_0 (0 : Fin 2) * 512 + 512
    omega
  | ⟨1, _⟩ =>
    show win1_3.index t1_0 (1 : Fin 2) * 1 ≤ (i 1).val ∧ (i 1).val < win1_3.index t1_0 (1 : Fin 2) * 1 + 1
    omega

/-- After the region the result array is the dense layer of the pooled array, the weights and the bias as the region
    found them. -/
theorem final (c : Dev nD) :
    (dat1 V c).arrAt 3 cfg1.N
      = dense (V c main_v61 : FVec Ideal S512x128 .f32) (V c main_arg5 : FVec Ideal S128x1 .f32) (V c main_arg6 : FVec Ideal S1 .f32) :=
  (dat1 V c).arrAt_eq_of_cover 3 _ (fun t _ => flushed_eq V c t) cover

end Cert.KernelIdeal.Layer2

end
-- ==== Proof.Result.lean ====
/-
  The kernel program's result, read off the boundaries of its run.

  After the propagation (the last host stretch before the first region) the program is: the first dense layer on the
  propagated features, the per-graph sum of the hidden rows (a scatter-add of the rows into 512 zero rows at the graph
  ids), and the second dense layer on the pooled rows. Each boundary's contents are the previous boundary's with one
  step applied: a region's result array is what its blocks leave (the two layer modules), a host stretch's results are
  its operations' values, and no step writes an argument array. Read back from the last boundary, the result buffer
  holds  head X batch W1 b1 W2 b2 = dense (pool (dense X W1 b1) batch) W2 b2  of the propagated features X and the
  argument arrays as launched.
-/
import proofs.«109665_j7103875907621_1_alg».proof.Proof.Gen.KernelIdeal.Frame
import proofs.«109665_j7103875907621_1_alg».proof.Proof.Dense
import proofs.«109665_j7103875907621_1_alg».proof.Proof.Layer1
import proofs.«109665_j7103875907621_1_alg».proof.Proof.Layer2
import Idealize.ShloMosaic.Lib.StableHlo.Run

set_option maxRecDepth 16384

noncomputable section

namespace Cert.KernelIdeal.Result

open Cert.KernelIdeal Cert.KernelIdeal.Gen Cert.Dense
open Idealize.ShloMosaic Idealize.ShloMosaic.TcCoe Idealize.SL.Sem Idealize.ShloMosaic.StableHlo

/-- The per-graph sum: the hidden rows added into 512 zero rows, row r into the row of its graph id. -/
def pool (h : FVec Ideal S50000x128 .f32) (batch : (⟨S50000, .i32⟩ : BufTy).Contents (Elt Ideal)) : FVec Ideal S512x128 .f32 :=
  Host.scatterAdd scatter_S512x128_S50000x1_S50000x128_1_0_0_1
    (broadcastInDim S512x128 ![] bcast_S_S512x128 (constant (F := Ideal) S_ .f32 0x00000000#32))
    (broadcastInDim S50000x1 ![0] bcast_S50000_S50000x1_0 batch) h

/-- Everything after the propagation: dense layer, per-graph sum, dense layer. -/
def head (X : FVec Ideal S50000x75 .f32) (batch : (⟨S50000, .i32⟩ : BufTy).Contents (Elt Ideal))
    (w1 : FVec Ideal S75x128 .f32) (b1 : FVec Ideal S128 .f32) (w2 : FVec Ideal S128x1 .f32) (b2 : FVec Ideal S1 .f32) :
    FVec Ideal S512x1 .f32 :=
  dense (pool (dense X w1 b1) batch) w2 b2

variable (m : (ℓ : Loc nD τ sig) → Buf (Elt Ideal) ℓ) (ρ : Dev nD → PrngReg) (c : Dev nD)

/-- The propagation writes no argument array: at the first region's entry the first layer's weights -/
theorem w1_at : W3 m ρ c (Proc.devRef .tc main_arg3) = m ((c : Thread nD τ).loc main_arg3) := by
  dsimp only [W3, W2, W1, W0]
  after_results_simp

/-- and bias are as launched, -/
theorem b1_at : W3 m ρ c (Proc.devRef .tc main_arg4) = m ((c : Thread nD τ).loc main_arg4) := by
  dsimp only [W3, W2, W1, W0]
  after_results_simp

/-- and so are, there, the graph ids, -/
theorem batch_at3 : W3 m ρ c (Proc.devRef .tc main_arg2) = m ((c : Thread nD τ).loc main_arg2) := by
  dsimp only [W3, W2, W1, W0]
  after_results_simp

/-- the second layer's weights -/
theorem w2_at3 : W3 m ρ c (Proc.devRef .tc main_arg5) = m ((c : Thread nD τ).loc main_arg5) := by
  dsimp only [W3, W2, W1, W0]
  after_results_simp

/-- and bias. -/
theorem b2_at3 : W3 m ρ c (Proc.devRef .tc main_arg6) = m ((c : Thread nD τ).loc main_arg6) := by
  dsimp only [W3, W2, W1, W0]
  after_results_simp

/-- At the first region's exit its result array is the first dense layer of the propagated features. -/
theorem hidden_at : W4 m ρ c (Proc.devRef .tc main_v58)
    = dense (W3 m ρ c (Proc.devRef .tc main_v57) : FVec Ideal S50000x75 .f32) (m ((c : Thread nD τ).loc main_arg3)) (m ((c : Thread nD τ).loc main_arg4)) := by
  refine (W4_arr m ρ c 3).trans ?_
  rw [Layer1.final (V3 m ρ) c]
  show dense (W3 m ρ c (Proc.devRef .tc main_v57) : FVec Ideal S50000x75 .f32) (W3 m ρ c (Proc.devRef .tc main_arg3))
    (W3 m ρ c (Proc.devRef .tc main_arg4)) = _
  rw [w1_at, b1_at]

/-- The first region writes only its result array: the graph ids, -/
theorem batch_at4 : W4 m ρ c (Proc.devRef .tc main_arg2) = m ((c : Thread nD τ).loc main_arg2) :=
  (W4_of_ne m ρ c main_arg2 (by decide)).trans (batch_at3 m ρ c)

/-- the second layer's weights -/
theorem w2_at4 : W4 m ρ c (Proc.devRef .tc main_arg5) = m ((c : Thread nD τ).loc main_arg5) :=
  (W4_of_ne m ρ c main_arg5 (by decide)).trans (w2_at3 m ρ c)

/-- and bias are still as launched. -/
theorem b2_at4 : W4 m ρ c (Proc.devRef .tc main_arg6) = m ((c : Thread nD τ).loc main_arg6) :=
  (W4_of_ne m ρ c main_arg6 (by decide)).trans (b2_at3 m ρ c)

/-- At the second region's entry the pooled array is the per-graph sum of the hidden rows, -/
theorem pooled_at : W5 m ρ c (Proc.devRef .tc main_v61)
    = pool (dense (W3 m ρ c (Proc.devRef .tc main_v57) : FVec Ideal S50000x75 .f32) (m ((c : Thread nD τ).loc main_arg3)) (m ((c : Thread nD τ).loc main_arg4)))
        (m ((c : Thread nD τ).loc main_arg2)) := by
  have h : W5 m ρ c (Proc.devRef .tc main_v61)
      = pool (W4 m ρ c (Proc.devRef .tc main_v58)) (W4 m ρ c (Proc.devRef .tc main_arg2)) := by
    unfold pool
    dsimp only [W5]
    generalize W4 m ρ c = Vw
    after_results_simp
  rw [h, hidden_at, batch_at4]

/-- and the second layer's weights -/
theorem w2_at : W5 m ρ c (Proc.devRef .tc main_arg5) = m ((c : Thread nD τ).loc main_arg5) := by
  dsimp only [W5]
  generalize hV : W4 m ρ c = Vw
  after_results_simp
  subst hV
  exact w2_at4 m ρ c

/-- and bias are as launched. -/
theorem b2_at : W5 m ρ c (Proc.devRef .tc main_arg6) = m ((c : Thread nD τ).loc main_arg6) := by
  dsimp only [W5]
  generalize hV : W4 m ρ c = Vw
  after_results_simp
  subst hV
  exact b2_at4 m ρ c

/-- At the last boundary the result buffer holds the part of the program after the propagation, applied to the
    propagated features and the argument arrays as launched. -/
theorem result_at : W6 m ρ c (Proc.devRef .tc main_v62)
    = head (W3 m ρ c (Proc.devRef .tc main_v57)) (m ((c : Thread nD τ).loc main_arg2)) (m ((c : Thread nD τ).loc main_arg3)) (m ((c : Thread nD τ).loc main_arg4))
        (m ((c : Thread nD τ).loc main_arg5)) (m ((c : Thread nD τ).loc main_arg6)) := by
  unfold head
  refine (W6_arr m ρ c 3).trans ?_
  rw [Layer2.final (V5 m ρ) c]
  show dense (W5 m ρ c (Proc.devRef .tc main_v61) : FVec Ideal S512x128 .f32) (W5 m ρ c (Proc.devRef .tc main_arg5))
    (W5 m ρ c (Proc.devRef .tc main_arg6)) = _
  rw [pooled_at, w2_at, b2_at]

end Cert.KernelIdeal.Result

end
-- ==== Proof.Hops.lean ====
/-
  What the propagation reads.

  Both programs start with the same host operations. The first two stretches build, from the edge list e : [2, 800000]:
  the source and the target node of each of the 850000 messages — the edges' endpoints followed by 0 … 49999, one self
  loop per node —, the degree of every node (a scatter-add of ones at the targets), and the normalising factor
  1 / sqrt(degree) where the degree is positive, 0 elsewhere. The last stretch — two rounds of gather, scale,
  scatter-add — reads only those three vectors and the feature array x. This file names the three vectors as functions of
  e, spelt operation by operation as the program spells them, and states what the boundary before the last stretch
  holds at the four buffers that stretch reads.
-/
import proofs.«109665_j7103875907621_1_alg».proof.Proof.Gen.KernelIdeal.Frame
import Idealize.ShloMosaic.PureOps.Ideal
import Idealize.ShloMosaic.Lib.StableHlo.Run

set_option maxRecDepth 16384

noncomputable section

namespace Cert.KernelIdeal.Hops

open Cert.KernelIdeal Cert.KernelIdeal.Gen
open Idealize.ShloMosaic Idealize.ShloMosaic.TcCoe Idealize.SL.Sem Idealize.ShloMosaic.StableHlo

/-- The source node of each message: row 0 of the edge list, then every node once. -/
def srcNode (e : (⟨S2x800000, .i32⟩ : BufTy).Contents (Elt Ideal)) : (⟨S850000, .i32⟩ : BufTy).Contents (Elt Ideal) :=
  concatenate S850000 0
    [⟨S800000, shapeCast _ (extractStridedSlice S1x800000 ![0, 0] e slices_S2x800000_S1x800000_0_0) shapeCasts_S1x800000_S800000⟩,
     ⟨S50000, iotaInDim S50000 32 0⟩] concatenates_S800000_S50000_S850000_d0

/-- The target node of each message: row 1 of the edge list, then every node once. -/
def dstNode (e : (⟨S2x800000, .i32⟩ : BufTy).Contents (Elt Ideal)) : (⟨S850000, .i32⟩ : BufTy).Contents (Elt Ideal) :=
  concatenate S850000 0
    [⟨S800000, shapeCast _ (extractStridedSlice S1x800000 ![1, 0] e slices_S2x800000_S1x800000_1_0) shapeCasts_S1x800000_S800000⟩,
     ⟨S50000, iotaInDim S50000 32 0⟩] concatenates_S800000_S50000_S850000_d0

/-- The degree of every node: ones added at the messages' targets. -/
def degree (dst : (⟨S850000, .i32⟩ : BufTy).Contents (Elt Ideal)) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- 1 / sqrt(degree) where the degree is positive (the degree first raised to a small floor), 0 elsewhere. -/
def invSqrtDegree (dst : (⟨S850000, .i32⟩ : BufTy).Contents (Elt Ideal)) : FVec Ideal S50000 .f32 :=
  select (cmpf .ogt (degree dst) (broadcastInDim S50000 ![] bcast_S_S50000 (constant S_ .f32 0x00000000#32)))
    (Host.rsqrt (maximumf (degree dst) (broadcastInDim S50000 ![] bcast_S_S50000 (constant S_ .f32 0x2B8CBCCC#32))))
    (broadcastInDim S50000 ![] bcast_S_S50000 (id (constant S_ .f32 0x00000000#32)))

variable (m : (ℓ : Loc nD τ sig) → Buf (Elt Ideal) ℓ) (ρ : Dev nD → PrngReg) (c : Dev nD)

/-- Before the last stretch the buffer of the messages' sources holds them, -/
theorem src_at : W2 m ρ c (Proc.devRef .tc main_v3) = srcNode (m ((c : Thread nD τ).loc main_arg1)) := by
  dsimp only [W2, W1, W0]
  after_results_simp
  rfl

/-- the buffer of their targets holds them, -/
theorem dst_at : W2 m ρ c (Proc.devRef .tc main_v6) = dstNode (m ((c : Thread nD τ).loc main_arg1)) := by
  dsimp only [W2, W1, W0]
  after_results_simp
  rfl

/-- After the first stretch: the mask of the nodes of positive degree, -/
theorem positive_at : W1 m ρ c (Proc.devRef .tc main_v12)
    = cmpf .ogt (degree (dstNode (m ((c : Thread nD τ).loc main_arg1))))
        (broadcastInDim S50000 ![] bcast_S_S50000 (constant S_ .f32 0x00000000#32)) := by
  dsimp only [W1, W0]
  after_results_simp
  rfl

/-- the reciprocal square roots of the floored degrees, -/
theorem rsqrt_at : W1 m ρ c (Proc.devRef .tc main_v15)
    = Host.rsqrt (maximumf (degree (dstNode (m ((c : Thread nD τ).loc main_arg1))))
        (broadcastInDim S50000 ![] bcast_S_S50000 (constant S_ .f32 0x2B8CBCCC#32))) := by
  dsimp only [W1, W0]
  after_results_simp
  rfl

/-- and the scalar zero that fills the other nodes. -/
theorem zero_at : W1 m ρ c (Proc.devRef .tc main_cst_3) = constant (F := Ideal) S_ .f32 0x00000000#32 := by
  dsimp only [W1, W0]
  after_results_simp

/-- The second stretch is the selection between the two, so before the last stretch the buffer of the normalising
    factors holds them, -/
theorem invSqrtDegree_at :
    W2 m ρ c (Proc.devRef .tc main_v16) = invSqrtDegree (dstNode (m ((c : Thread nD τ).loc main_arg1))) := by
  dsimp only [W2]
  generalize hV : W1 m ρ c = V1
  after_results_simp
  show select (V1 (Proc.devRef .tc main_v12)) (V1 (Proc.devRef .tc main_v15))
      (broadcastInDim S50000 ![] bcast_S_S50000 (id (V1 (Proc.devRef .tc main_cst_3)))) = _
  subst hV
  rw [positive_at, rsqrt_at, zero_at]
  rfl

/-- and the feature array is as launched. -/
theorem x_at : W2 m ρ c (Proc.devRef .tc main_arg0) = m ((c : Thread nD τ).loc main_arg0) := by
  dsimp only [W2, W1, W0]
  after_results_simp

end Cert.KernelIdeal.Hops

end
-- ==== Proof.Bridge.lean ====
/-
  The reference's result is the kernel program's.

  The reference's run ends with its result at one composed expression of its arguments. Its last eleven operations are
  the part after the propagation in the host's spelling: the general product plus a spread bias, twice, around the
  per-graph sum. Each of the two is the dense layer (the same sum of the same products plus the same bias entry), so
  the tail is the kernel program's  head.  What the tail is applied to — the propagated features — is spelt by the
  same 73 host operations in both programs, over arguments that agree; the kernel program's buffer for them, read
  back through its last host stretch and the four vectors that stretch reads, is that expression operation for
  operation. Hence the reference's result is  head  of the kernel program's propagated features and the arguments.
-/
import proofs.«109665_j7103875907621_1_alg».proof.Proof.RefRun
import proofs.«109665_j7103875907621_1_alg».proof.Proof.Hops
import proofs.«109665_j7103875907621_1_alg».proof.Proof.Result
import proofs.«109665_j7103875907621_1_alg».proof.Proof.Dense

set_option maxRecDepth 16384

noncomputable section

namespace Cert.Bridge

open Cert.Dense
open Idealize.ShloMosaic Idealize.ShloMosaic.TcCoe Idealize.SL.Sem Idealize.ShloMosaic.StableHlo

/-- The reference's last eleven operations (two dense layers around the per-graph sum), applied to the propagated features X. -/
def refTail (X : FVec Ideal Cert.ReferenceIdeal.S50000x75 .f32)
    (a2 : (⟨Cert.ReferenceIdeal.S50000, .i32⟩ : BufTy).Contents (Elt Ideal))
    (a3 : FVec Ideal Cert.ReferenceIdeal.S75x128 .f32)
    (a4 : FVec Ideal Cert.ReferenceIdeal.S128 .f32)
    (a5 : FVec Ideal Cert.ReferenceIdeal.S128x1 .f32)
    (a6 : FVec Ideal Cert.ReferenceIdeal.S1 .f32) :
    FVec Ideal Cert.ReferenceIdeal.S512x1 .f32 :=
  open Cert.ReferenceIdeal Cert.ReferenceIdeal.Gen in
  addf (Host.dotGeneral dot_S512x128_S128x1_S512x1_1_0_0_1_n_n none
      (Host.scatterAdd scatter_S512x128_S50000x1_S50000x128_1_0_0_1
        (broadcastInDim S512x128 ![] bcast_S_S512x128 (constant (F := Ideal) S_ .f32 0x00000000#32))
        (broadcastInDim S50000x1 ![0] bcast_S50000_S50000x1_0 a2)
        (addf (Host.dotGeneral dot_S50000x75_S75x128_S50000x128_1_0_0_1_n_n none X a3)
          (broadcastInDim S50000x128 ![0, 1] bcast_S1x128_S50000x128_0_1 (broadcastInDim S1x128 ![1] bcast_S128_S1x128_1 a4))))
      a5)
    (broadcastInDim S512x1 ![0, 1] bcast_S1x1_S512x1_0_1 (broadcastInDim S1x1 ![1] bcast_S1_S1x1_1 a6))

/-- The host's first layer — general product plus the bias spread over the rows — is the dense layer. -/
theorem layer1_host (X : FVec Ideal Cert.ReferenceIdeal.S50000x75 .f32) (a3 : FVec Ideal Cert.ReferenceIdeal.S75x128 .f32) (a4 : FVec Ideal Cert.ReferenceIdeal.S128 .f32) :
    addf (Host.dotGeneral Cert.ReferenceIdeal.dot_S50000x75_S75x128_S50000x128_1_0_0_1_n_n none X a3)
      (broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 a4))
      = dense X a3 a4 :=
  host_dense Cert.ReferenceIdeal.dot_S50000x75_S75x128_S50000x128_1_0_0_1_n_n rfl rfl rfl rfl rfl rfl X a3 a4
    Cert.ReferenceIdeal.Gen.bcast_S128_S1x128_1 Cert.ReferenceIdeal.Gen.bcast_S1x128_S50000x128_0_1

/-- The host's second layer is the dense layer. -/
theorem layer2_host (P : FVec Ideal Cert.ReferenceIdeal.S512x128 .f32) (a5 : FVec Ideal Cert.ReferenceIdeal.S128x1 .f32) (a6 : FVec Ideal Cert.ReferenceIdeal.S1 .f32) :
    addf (Host.dotGeneral Cert.ReferenceIdeal.dot_S512x128_S128x1_S512x1_1_0_0_1_n_n none P a5)
      (broadcastInDim Cert.ReferenceIdeal.S512x1 ![0, 1] Cert.ReferenceIdeal.Gen.bcast_S1x1_S512x1_0_1
        (broadcastInDim Cert.ReferenceIdeal.S1x1 ![1] Cert.ReferenceIdeal.Gen.bcast_S1_S1x1_1 a6))
      = dense P a5 a6 :=
  host_dense Cert.ReferenceIdeal.dot_S512x128_S128x1_S512x1_1_0_0_1_n_n rfl rfl rfl rfl rfl rfl P a5 a6
    Cert.ReferenceIdeal.Gen.bcast_S1_S1x1_1 Cert.ReferenceIdeal.Gen.bcast_S1x1_S512x1_0_1

/-- The reference's per-graph sum is the kernel program's: the same scatter-add into the same zero rows. -/
theorem pool_host (h : FVec Ideal Cert.ReferenceIdeal.S50000x128 .f32) (a2 : (⟨Cert.ReferenceIdeal.S50000, .i32⟩ : BufTy).Contents (Elt Ideal)) :
    Host.scatterAdd Cert.ReferenceIdeal.scatter_S512x128_S50000x1_S50000x128_1_0_0_1
        (broadcastInDim Cert.ReferenceIdeal.S512x128 ![] Cert.ReferenceIdeal.Gen.bcast_S_S512x128 (constant (F := Ideal) Cert.ReferenceIdeal.S_ .f32 0x00000000#32))
        (broadcastInDim Cert.ReferenceIdeal.S50000x1 ![0] Cert.ReferenceIdeal.Gen.bcast_S50000_S50000x1_0 a2) h
      = Cert.KernelIdeal.Result.pool h a2 := rfl

/-- The host's spelling of the part after the propagation is the kernel program's: two dense layers around the
    per-graph sum. -/
theorem refTail_eq (X : FVec Ideal Cert.ReferenceIdeal.S50000x75 .f32)
    (a2 : (⟨Cert.ReferenceIdeal.S50000, .i32⟩ : BufTy).Contents (Elt Ideal))
    (a3 : FVec Ideal Cert.ReferenceIdeal.S75x128 .f32) (a4 : FVec Ideal Cert.ReferenceIdeal.S128 .f32)
    (a5 : FVec Ideal Cert.ReferenceIdeal.S128x1 .f32) (a6 : FVec Ideal Cert.ReferenceIdeal.S1 .f32) :
    refTail X a2 a3 a4 a5 a6 = Cert.KernelIdeal.Result.head X a2 a3 a4 a5 a6 := by
  unfold refTail Cert.KernelIdeal.Result.head
  rw [layer1_host X a3 a4, pool_host _ a2, layer2_host _ a5 a6]

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 40000000 in
/-- The reference's composed result is its tail applied to the kernel program's propagated features, when the feature
    array and the edge list agree. -/
theorem ref_prefix
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.ValueP.res_main_v68 m' c
      = refTail (Cert.KernelIdeal.Gen.W3 m ρ c (Proc.devRef .tc Cert.KernelIdeal.main_v57))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  unfold Cert.ReferenceIdeal.ValueP.res_main_v68 refTail
  rw [h0, h1]
  -- down to the propagated features: the tail's operations are the same on both sides
  refine congrArg (fun z => addf z _) ?_
  refine congrArg (fun z => Host.dotGeneral _ none z _) ?_
  refine congrArg (fun z => Host.scatterAdd _ _ _ z) ?_
  refine congrArg (fun z => addf z _) ?_
  refine congrArg (fun z => Host.dotGeneral _ none z _) ?_
  symm
  -- the kernel program's buffer, through its last host stretch from whatever the stretch is entered with …
  dsimp only [Cert.KernelIdeal.Gen.W3]
  generalize hV : Cert.KernelIdeal.Gen.W2 m ρ c = Vw
  after_results_simp
  subst hV
  -- … which at the four buffers it reads is the normalising factors, the messages' ends and the features
  rw [Cert.KernelIdeal.Hops.invSqrtDegree_at, Cert.KernelIdeal.Hops.src_at, Cert.KernelIdeal.Hops.dst_at, Cert.KernelIdeal.Hops.x_at]
  rfl

/-- The reference's result is the part after the propagation applied to the kernel program's propagated features and
    the kernel program's arguments, when the two programs' arguments agree. -/
theorem ref_result
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ValueP.res_main_v68 m' c
      = Cert.KernelIdeal.Result.head (Cert.KernelIdeal.Gen.W3 m ρ c (Proc.devRef .tc Cert.KernelIdeal.main_v57))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  rw [ref_prefix m ρ m' c h0 h1, h2, h3, h4, h5, h6]
  exact refTail_eq _ _ _ _ _ _

end Cert.Bridge

end
-- ==== Proof.lean ====
/-
  The certificate of a two-layer graph network against its jnp reference, over the extended reals.

  Both programs normalise the graph (self loops added, degrees, 1 / sqrt(degree)), propagate the node features two
  hops along the edges (gather, scale, scatter-add), apply a dense layer [75 → 128], sum the hidden rows per graph
  and apply a dense layer [128 → 1]. Everything except the two dense layers is the same host operations in both. The
  kernel program computes each dense layer in a kernel region — operands narrowed (the identity on the extended
  reals), multiplied into a zero accumulator, bias row added; 50 row blocks for the first layer, one block for the
  second —, the reference as a general product plus a spread bias. Either way the layer's entry (p, q) is
  (∑ₖ x (p, k) · w (k, q)) + b q: the same sum of the same products, so no law of the extended reals that needs
  finite entries is used, and the precondition is never opened.

  The three frames: the two kernel programs' are the generated ones; the reference's is its run with the result
  dropped. The idealization rewrote no operation, so its claim is trivial. The value claim: the kernel program's run
  ends with every buffer at its last boundary's contents, where the result buffer holds the part after the propagation
  applied to the propagated features and the arguments; the reference's run ends with its result at the same
  expression of the same features and arguments.
-/
import proofs.«109665_j7103875907621_1_alg».proof.Defs
import proofs.«109665_j7103875907621_1_alg».proof.Proof.Gen.Kernel
import proofs.«109665_j7103875907621_1_alg».proof.Proof.Gen.Kernel.Skeleton
import proofs.«109665_j7103875907621_1_alg».proof.Proof.Gen.Kernel.Launch
import proofs.«109665_j7103875907621_1_alg».proof.Proof.Gen.Kernel.Points
import proofs.«109665_j7103875907621_1_alg».proof.Proof.Gen.Kernel.Frame
import proofs.«109665_j7103875907621_1_alg».proof.Proof.Gen.KernelIdeal
import proofs.«109665_j7103875907621_1_alg».proof.Proof.Gen.KernelIdeal.Skeleton
import proofs.«109665_j7103875907621_1_alg».proof.Proof.Gen.KernelIdeal.Launch
import proofs.«109665_j7103875907621_1_alg».proof.Proof.Gen.KernelIdeal.Points
import proofs.«109665_j7103875907621_1_alg».proof.Proof.Gen.KernelIdeal.Frame
import proofs.«109665_j7103875907621_1_alg».proof.Proof.Gen.ReferenceIdeal
import proofs.«109665_j7103875907621_1_alg».proof.Proof.Gen.Pre_finite_inputs
import proofs.«109665_j7103875907621_1_alg».proof.Proof.RefRun
import proofs.«109665_j7103875907621_1_alg».proof.Proof.KernelRun
import proofs.«109665_j7103875907621_1_alg».proof.Proof.Result
import proofs.«109665_j7103875907621_1_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the part after the propagation applied to the kernel program's propagated features
    and arguments: the kernel program's by its boundaries, the reference's because its expression is that one. -/
theorem algebraic : Cert.algebraic_KernelIdeal_ReferenceIdeal := by
  intro m ρ m' ρ' _ hagree
  refine ⟨fun c => Cert.KernelIdeal.Result.head (Cert.KernelIdeal.Gen.W3 m ρ c (Proc.devRef .tc Cert.KernelIdeal.main_v57))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.GenP.run_boundary (F := Ideal) m ρ)
    exact ⟨(h c _ (Cert.KernelIdeal.Gen.mem_uc Cert.KernelIdeal.main_v62 (by decide))).trans (Cert.KernelIdeal.Result.result_at m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c)⟩
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6⟩ := hagree c
    exact Cert.Bridge.ref_result m ρ m' c h0 h1 h2 h3 h4 h5 h6

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
